-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 121
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x128, .f32⟩
  | .hbm, ⟨99, _⟩ => ⟨S850000x1, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S512x128, .f32⟩
  | .hbm, ⟨110, _⟩ => ⟨S50000x1, .i32⟩
  | .hbm, ⟨111, _⟩ => ⟨S512x128, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S512, .f32⟩
  | .hbm, ⟨116, _⟩ => ⟨S50000x1, .i32⟩
  | .hbm, ⟨117, _⟩ => ⟨S512, .f32⟩
  | .hbm, ⟨118, _⟩ => ⟨S512x1, .f32⟩
  | .hbm, ⟨119, _⟩ => ⟨S1x1, .f32⟩
  | .hbm, ⟨120, _⟩ => ⟨S512x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S512x1, .f32⟩
  | .local _ .vmem, ⟨32, _⟩ => ⟨S128x1, .f32⟩
  | .local _ .vmem, ⟨33, _⟩ => ⟨S1x1, .f32⟩
  | .local _ .vmem, ⟨34, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  shapeCasts_S512_S512x1 : S512.ShapeCasts S512x1
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1.size a ≤ S512x1.size a
  hwx6_1 : ∀ i : grid6.Coords, EltTy.bits .f32 = 32 ∨ (Rect.block (s := S512x1) S512x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x1.size a ≤ S512x1.size a
  hwx6_4 : ∀ i : grid6.Coords, EltTy.bits .f32 = 32 ∨ (Rect.block (s := S512x1) S512x1.size (cc6_transform_4 i) (hinb6_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v85) S512x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v87) S512x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S512x128, .f32⟩
  | 119 => ⟨S50000x1, .i32⟩
  | 120 => ⟨S512x128, .f32⟩
  | 121 => ⟨S_, .f32⟩
  | 122 => ⟨S50000, .f32⟩
  | 123 => ⟨S_, .f32⟩
  | 124 => ⟨S512, .f32⟩
  | 125 => ⟨S50000x1, .i32⟩
  | 126 => ⟨S512, .f32⟩
  | 127 => ⟨S_, .f32⟩
  | _ => ⟨S50000x64, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x1, .f32⟩
  | 6 => ⟨S1x1, .f32⟩
  | 7 => ⟨S512x1, .f32⟩
  | 8 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.RunW.lean ====
/-
  The idealized kernel program's run with its RESULT named. The program is seven kernel regions among
  stretches of host operations; the buffers' contents at each boundary are a fold from the launch memory
  (a stretch applies its operations, a region replaces its output array by what its write-backs leave).
  Every weakly fair execution terminates, and in every final state the result buffer holds the last
  boundary's contents at that buffer, while each argument array is as launched. What those contents ARE,
  as a function of the arguments, is read off the fold elsewhere.
-/
import proofs.«101955_j11063835755072_1_alg».proof.Proof.Gen.KernelIdeal.Frame

set_option maxRecDepth 16384

noncomputable section

namespace Cert.KernelIdeal.RunW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments launched from `m`; the last thread state holds every unscoped buffer at the last
    boundary's contents, which a final state's memory therefore shows — at the result buffer and at each argument. -/
theorem run_result : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

/-- The result buffer is region 6's output array: the last boundary's contents there are what that region's
    write-backs leave. -/
theorem W14_result (c : Dev nD) :
    W14 m ρ c (Proc.devRef .tc main_v87) = (dat6 (V13 m ρ) c).arrAt 4 cfg6.N :=
  W14_arr m ρ c 4

end Cert.KernelIdeal.RunW

end
-- ==== Proof.Region0.lean ====
/-
  Region 0: a row-blocked matrix product. The array of 50000 rows is cut into ten blocks of 5000 rows;
  at each grid point the body multiplies the point's block of rows by the WHOLE right factor (64 × 128) into a
  zero accumulator and stores the product as the point's block of the output. Rounding the factors to bf16 is
  the identity on the extended reals, so entry (r, q) of a block's product is the sum over k of
  left(r, k) · right(k, q). A row of the output depends only on the same row of the left factor, and the ten
  blocks tile the rows, so the output array after the region is the product of the whole arrays: the
  reference's `dot_general` of the two arrays the region finds on entry.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- Row `j 0`, column `k` of a block of the left factor. -/
abbrev lrow (j : S5000x128.Idx) (k : Fin 64) : S5000x64.Idx := fun a => match a with
  | ⟨0, _⟩ => ⟨(j 0).val, (j 0).isLt⟩
  | ⟨1, _⟩ => ⟨k.val, k.isLt⟩
/-- Row `k`, column `j 1` of the right factor. -/
abbrev rcol (j : S5000x128.Idx) (k : Fin 64) : S64x128.Idx := fun a => match a with
  | ⟨0, _⟩ => ⟨k.val, k.isLt⟩
  | ⟨1, _⟩ => ⟨(j 1).val, (j 1).isLt⟩

theorem lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's stored value at entry `j` of the block: the sum over the contracted axis of the products. -/
theorem pay_apply (x0 : Vec Ideal S5000x64 .f32) (x1 : Vec Ideal S64x128 .f32) (j : S5000x128.Idx) :
    k0_pay1 (F := Ideal) x0 x1 j = ∑ k : Fin 64, x0 (lrow j k) * x1 (rcol j k) := by
  unfold k0_pay1
  refine (Ideal.matmul_constant_zero_apply dot_S5000x64_S64x128_S5000x128_1_0_0_1_n_n none _ _ j).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = lrow j k := funext fun a => Fin.ext (by
    match a with
    | ⟨0, _⟩ => exact lhs_0 _ _
    | ⟨1, _⟩ => exact (lhs_1 _ _).trans hk)
  have er : dot_S5000x64_S64x128_S5000x128_1_0_0_1_n_n.rhsIdx j ((ValueIdx.contrEquiv1 dot_S5000x64_S64x128_S5000x128_1_0_0_1_n_n 64 rfl rfl).symm k) = rcol j k := funext fun a => Fin.ext (by
    match a with
    | ⟨0, _⟩ => exact (rhs_0 _ _).trans hk
    | ⟨1, _⟩ => exact rhs_1 _ _)
  rw [el, er]
  rfl

/-! ## The whole-array product -/

/-- Row `i 0`, column `k` of the whole left factor. -/
abbrev alrow (i : S50000x128.Idx) (k : Fin 64) : S50000x64.Idx := fun a => match a with
  | ⟨0, _⟩ => ⟨(i 0).val, (i 0).isLt⟩
  | ⟨1, _⟩ => ⟨k.val, k.isLt⟩
/-- Row `k`, column `i 1` of the right factor. -/
abbrev arcol (i : S50000x128.Idx) (k : Fin 64) : S64x128.Idx := fun a => match a with
  | ⟨0, _⟩ => ⟨k.val, k.isLt⟩
  | ⟨1, _⟩ => ⟨(i 1).val, (i 1).isLt⟩

theorem alhs_0 (i : S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 0).val = (i 0).val := by
  unfold DotDims.lhsIdx
  rw [dif_neg (show ¬(0 : Fin S50000x64.rank) ∈ Cert.ReferenceIdeal.dot_S50000x64_S64x128_S50000x128_1_0_0_1_n_n.lhsBatch by decide), dif_pos (show (0 : Fin S50000x64.rank) ∈ Cert.ReferenceIdeal.dot_S50000x64_S64x128_S50000x128_1_0_0_1_n_n.lhsNonContracting by decide)]
  rfl
theorem alhs_1 (i : S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 1).val = (q ⟨0, by decide⟩).val :=
  Cert.ReferenceIdeal.dot_S50000x64_S64x128_S50000x128_1_0_0_1_n_n.lhsIdx_val_of_single rfl i q
theorem arhs_0 (i : S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 0).val = (q ⟨0, by decide⟩).val :=
  Cert.ReferenceIdeal.dot_S50000x64_S64x128_S50000x128_1_0_0_1_n_n.rhsIdx_val_of_single rfl i q
theorem arhs_1 (i : S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 1).val = (i 1).val := by
  unfold DotDims.rhsIdx
  rw [dif_neg (show ¬(1 : Fin S64x128.rank) ∈ Cert.ReferenceIdeal.dot_S50000x64_S64x128_S50000x128_1_0_0_1_n_n.rhsBatch by decide), dif_pos (show (1 : Fin S64x128.rank) ∈ Cert.ReferenceIdeal.dot_S50000x64_S64x128_S50000x128_1_0_0_1_n_n.rhsNonContracting by decide)]
  rfl

/-- The reference's product of two whole arrays. -/
abbrev G (A : FVec Ideal S50000x64 .f32) (B : FVec Ideal S64x128 .f32) : FVec Ideal S50000x128 .f32 :=
  Host.dotGeneral (F := Ideal) Cert.ReferenceIdeal.dot_S50000x64_S64x128_S50000x128_1_0_0_1_n_n none A B

/-- Entry `i` of the whole product: the sum over `k` of left(i 0, k) · right(k, i 1). -/
theorem G_apply (A : FVec Ideal S50000x64 .f32) (B : FVec Ideal S64x128 .f32) (i : S50000x128.Idx) :
    G A B i = ∑ k : Fin 64, A (alrow i k) * B (arcol i k) := by
  show FloatOps.dotGeneral Cert.ReferenceIdeal.dot_S50000x64_S64x128_S50000x128_1_0_0_1_n_n none _ A B i = _
  rw [Ideal.dotGeneral_apply, ← Equiv.sum_comp (ValueIdx.contrEquiv1 Cert.ReferenceIdeal.dot_S50000x64_S64x128_S50000x128_1_0_0_1_n_n 64 rfl rfl).symm]
  refine Finset.sum_congr rfl fun k _ => ?_
  have hk := ValueIdx.contrEquiv1_symm_val Cert.ReferenceIdeal.dot_S50000x64_S64x128_S50000x128_1_0_0_1_n_n 64 rfl rfl k
  have el : Cert.ReferenceIdeal.dot_S50000x64_S64x128_S50000x128_1_0_0_1_n_n.lhsIdx i ((ValueIdx.contrEquiv1 Cert.ReferenceIdeal.dot_S50000x64_S64x128_S50000x128_1_0_0_1_n_n 64 rfl rfl).symm k) = alrow i k := funext fun a => Fin.ext (by
    match a with
    | ⟨0, _⟩ => exact alhs_0 _ _
    | ⟨1, _⟩ => exact (alhs_1 _ _).trans hk)
  have er : Cert.ReferenceIdeal.dot_S50000x64_S64x128_S50000x128_1_0_0_1_n_n.rhsIdx i ((ValueIdx.contrEquiv1 Cert.ReferenceIdeal.dot_S50000x64_S64x128_S50000x128_1_0_0_1_n_n 64 rfl rfl).symm k) = arcol i k := funext fun a => Fin.ext (by
    match a with
    | ⟨0, _⟩ => exact (arhs_0 _ _).trans hk
    | ⟨1, _⟩ => exact arhs_1 _ _)
  rw [el, er]

/-! ## From blocks to the array -/

/-- The index maps over the grid: point `t` takes block `t` of the left factor's rows and of the output's rows;
    the right factor has one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  obtain ⟨e0, e1, e2, e3, e4, e5⟩ := idx_facts t
  funext j
  show k0_pay1 (F := Ideal) (iblk0 V c 0 t) (iblk0 V c 1 t) j = G (V c main_arg0) (V c main_arg3) (((cfg0.win 2).blk t).view.emb j)
  rw [pay_apply, G_apply]
  refine Finset.sum_congr rfl fun k _ => ?_
  have h0 : ((cfg0.win 0).blk t).view.emb (lrow j k) = alrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (rcol j k) = arcol (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  have hl : iblk0 V c 0 t (lrow j k) = V c main_arg0 (alrow (((cfg0.win 2).blk t).view.emb j) k) := by
    show V c main_arg0 (((cfg0.win 0).blk t).view.emb (lrow j k)) = _
    rw [h0]
  have hr : iblk0 V c 1 t (rcol j k) = V c main_arg3 (arcol (((cfg0.win 2).blk t).view.emb j) k) := by
    show V c main_arg3 (((cfg0.win 1).blk t).view.emb (rcol j k)) = _
    rw [h1]
  rw [hl, hr]

/-- An index of the output array lies in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output lies in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array after the region: the product of the two arrays the region found on entry. -/
theorem final (c : Dev nD) :
    (dat0 V c).arrAt 2 cfg0.N = G (V c main_arg0) (V c main_arg3) :=
  (dat0 V c).arrAt_eq_of_cover 2 (G (V c main_arg0) (V c main_arg3)) (fun t _ => flushed_eq V c t) cover

end Cert.KernelIdeal.Region0

end
-- ==== Proof.Region1.lean ====
/-
  Region 1: a bias added to every row, then the positive part. The array of 50000 rows is cut into ten blocks of 5000
  rows; the bias is one row of 128 entries, the same block at every point. At each point the body adds the bias
  row to each row of the point's block and takes the maximum with 0, entry by entry, and stores the result as the point's block of the
  output. The operation is pointwise in the array's index (entry (r, q) of the output depends on entry (r, q)
  of the input and entry q of the bias), and the ten blocks tile the rows, so the output array after the region
  is the same pointwise function of the whole arrays.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The bias entry under column `j 1` of a block. -/
abbrev brow (j : S5000x128.Idx) : S1x128.Idx := fun a => match a with
  | ⟨0, _⟩ => ⟨0, Nat.one_pos⟩
  | ⟨1, _⟩ => ⟨(j 1).val, (j 1).isLt⟩

/-- The body's stored value at entry `j` of the block. -/
theorem pay_apply (b : Vec Ideal S1x128 .f32) (x : Vec Ideal S5000x128 .f32) (j : S5000x128.Idx) :
    k1_pay1 (F := Ideal) b x j = max (x j + b (brow j)) 0 := by
  unfold k1_pay1
  simp only [shapeCast_self]
  have hb : broadcastTo S5000x128 b broadcasts_S1x128_S5000x128 j = b (brow j) :=
    broadcastTo_apply b broadcasts_S1x128_S5000x128 j (brow j) (fun a => match a with
      | ⟨0, _⟩ => by show 0 = if (1 : Nat) = 1 then 0 else _; rw [if_pos rfl]
      | ⟨1, _⟩ => by show (j 1).val = if (128 : Nat) = 1 then 0 else _; rw [if_neg (by decide)]; rfl)
  show max (x j + broadcastTo S5000x128 b broadcasts_S1x128_S5000x128 j) (Ideal.ofBits .f32 0x00000000#32) = _
  rw [hb, Ideal.ofBits_zero_f32]

/-! ## The whole-array function -/

/-- The reference's operations on whole arrays: the bias row broadcast down the rows and added, then the maximum with the zero array. -/
abbrev G (A : FVec Ideal S50000x128 .f32) (b : FVec Ideal S1x128 .f32) : FVec Ideal S50000x128 .f32 :=
  maximumf (F := Ideal) (addf (F := Ideal) A (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- The bias entry under column `i 1` of the array. -/
abbrev arow (i : S50000x128.Idx) : S1x128.Idx := fun a => match a with
  | ⟨0, _⟩ => ⟨0, Nat.one_pos⟩
  | ⟨1, _⟩ => ⟨(i 1).val, (i 1).isLt⟩

theorem G_apply (A : FVec Ideal S50000x128 .f32) (b : FVec Ideal S1x128 .f32) (i : S50000x128.Idx) :
    G A b i = max (A i + b (arow i)) 0 := by
  have hb : broadcastInDim S50000x128 ![0, 1] Cert.ReferenceIdeal.Facts₀.bcast_S1x128_S50000x128_0_1 b i = b (arow i) :=
    broadcastInDim_apply _ Cert.ReferenceIdeal.Facts₀.bcast_S1x128_S50000x128_0_1 b i (arow i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have h0 : broadcastInDim S50000x128 ![] Cert.ReferenceIdeal.Facts₀.bcast_S_S50000x128 (constant (F := Ideal) S_ .f32 0x00000000#32) i = 0 :=
    (broadcastInDim_apply _ Cert.ReferenceIdeal.Facts₀.bcast_S_S50000x128 (constant (F := Ideal) S_ .f32 0x00000000#32) i (fun a => a.elim0) (fun a => a.elim0)).trans Ideal.ofBits_zero_f32
  show max (A i + broadcastInDim S50000x128 ![0, 1] Cert.ReferenceIdeal.Facts₀.bcast_S1x128_S50000x128_0_1 b i)
      (broadcastInDim S50000x128 ![] Cert.ReferenceIdeal.Facts₀.bcast_S_S50000x128 (constant (F := Ideal) S_ .f32 0x00000000#32) i) = _
  rw [hb, h0]

/-! ## From blocks to the array -/

/-- The index maps over the grid: point `t` takes block `t` of the input's rows and of the output's rows; the
    bias has one block. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal) (G (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (F := Ideal) (iblk1 V c 1 t) (iblk1 V c 0 t) j = G (V c main_v43) (V c main_v44) (((cfg1.win 2).blk t).view.emb j)
  rw [pay_apply, G_apply]
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (brow j) = arow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have hx : iblk1 V c 0 t j = V c main_v43 (((cfg1.win 2).blk t).view.emb j) := by
    show V c main_v43 (((cfg1.win 0).blk t).view.emb j) = _
    rw [h0]
  have hbb : iblk1 V c 1 t (brow j) = V c main_v44 (arow (((cfg1.win 2).blk t).view.emb j)) := by
    show V c main_v44 (((cfg1.win 1).blk t).view.emb (brow j)) = _
    rw [h1]
  rw [hx, hbb]

/-- An index of the output array lies in point `t`'s block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the output lies in the block of point `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  rw [mem_blk]
  obtain ⟨e0, e1, e2, e3, e4, e5⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The output array after the region: the whole-array function of the two arrays the region found on entry. -/
theorem final (c : Dev nD) :
    (dat1 V c).arrAt 2 cfg1.N = G (V c main_v43) (V c main_v44) :=
  (dat1 V c).arrAt_eq_of_cover 2 (G (V c main_v43) (V c main_v44)) (fun t _ => flushed_eq V c t) cover

end Cert.KernelIdeal.Region1

end
-- ==== Proof.Region2.lean ====
/-
  Region 2: a row-blocked matrix product. The array of 50000 rows is cut into ten blocks of 5000 rows;
  at each grid point the body multiplies the point's block of rows by the WHOLE right factor (128 × 128) into a
  zero accumulator and stores the product as the point's block of the output. Rounding the factors to bf16 is
  the identity on the extended reals, so entry (r, q) of a block's product is the sum over k of
  left(r, k) · right(k, q). A row of the output depends only on the same row of the left factor, and the ten
  blocks tile the rows, so the output array after the region is the product of the whole arrays: the
  reference's `dot_general` of the two arrays the region finds on entry.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- Row `j 0`, column `k` of a block of the left factor. -/
abbrev lrow (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of the right factor. -/
abbrev rcol (j : S5000x128.Idx) (k : Fin 128) : S128x128.Idx := fun a => match a with
  | ⟨0, _⟩ => ⟨k.val, k.isLt⟩
  | ⟨1, _⟩ => ⟨(j 1).val, (j 1).isLt⟩

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `j` of the block: the sum over the contracted axis of the products. -/
theorem pay_apply (x0 : Vec Ideal S5000x128 .f32) (x1 : Vec Ideal S128x128 .f32) (j : S5000x128.Idx) :
    k2_pay1 (F := Ideal) x0 x1 j = ∑ k : Fin 128, x0 (lrow j k) * x1 (rcol j k) := by
  unfold k2_pay1
  simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The whole-array product -/

/-- Row `i 0`, column `k` of the whole left factor. -/
abbrev alrow (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of the right factor. -/
abbrev arcol (i : S50000x128.Idx) (k : Fin 128) : S128x128.Idx := fun a => match a with
  | ⟨0, _⟩ => ⟨k.val, k.isLt⟩
  | ⟨1, _⟩ => ⟨(i 1).val, (i 1).isLt⟩

theorem alhs_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem alhs_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem arhs_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem arhs_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The reference's product of two whole arrays. -/
abbrev G (A : FVec Ideal S50000x128 .f32) (B : FVec Ideal S128x128 .f32) : FVec Ideal S50000x128 .f32 :=
  Host.dotGeneral (F := Ideal) Cert.ReferenceIdeal.dot_S50000x128_S128x128_S50000x128_1_0_0_1_n_n none A B

/-- Entry `i` of the whole product: the sum over `k` of left(i 0, k) · right(k, i 1). -/
theorem G_apply (A : FVec Ideal S50000x128 .f32) (B : FVec Ideal S128x128 .f32) (i : S50000x128.Idx) :
    G A B i = ∑ k : Fin 128, A (alrow i k) * B (arcol i k) := by
  show FloatOps.dotGeneral Cert.ReferenceIdeal.dot_S50000x128_S128x128_S50000x128_1_0_0_1_n_n none _ A B i = _
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = alrow i k := funext fun a => Fin.ext (by
    match a with
    | ⟨0, _⟩ => exact alhs_0 _ _
    | ⟨1, _⟩ => exact (alhs_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = arcol i k := funext fun a => Fin.ext (by
    match a with
    | ⟨0, _⟩ => exact (arhs_0 _ _).trans hk
    | ⟨1, _⟩ => exact arhs_1 _ _)
  rw [el, er]

/-! ## From blocks to the array -/

/-- The index maps over the grid: point `t` takes block `t` of the left factor's rows and of the output's rows;
    the right factor has one block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (G (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (F := Ideal) (iblk2 V c 0 t) (iblk2 V c 1 t) j = G (V c main_v45) (V c main_arg5) (((cfg2.win 2).blk t).view.emb j)
  rw [pay_apply, G_apply]
  refine Finset.sum_congr rfl fun k _ => ?_
  have h0 : ((cfg2.win 0).blk t).view.emb (lrow j k) = alrow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rcol j k) = arcol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have hl : iblk2 V c 0 t (lrow j k) = V c main_v45 (alrow (((cfg2.win 2).blk t).view.emb j) k) := by
    show V c main_v45 (((cfg2.win 0).blk t).view.emb (lrow j k)) = _
    rw [h0]
  have hr : iblk2 V c 1 t (rcol j k) = V c main_arg5 (arcol (((cfg2.win 2).blk t).view.emb j) k) := by
    show V c main_arg5 (((cfg2.win 1).blk t).view.emb (rcol j k)) = _
    rw [h1]
  rw [hl, hr]

/-- An index of the output array lies in point `t`'s block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row `r` of the output lies in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The output array after the region: the product of the two arrays the region found on entry. -/
theorem final (c : Dev nD) :
    (dat2 V c).arrAt 2 cfg2.N = G (V c main_v45) (V c main_arg5) :=
  (dat2 V c).arrAt_eq_of_cover 2 (G (V c main_v45) (V c main_arg5)) (fun t _ => flushed_eq V c t) cover

end Cert.KernelIdeal.Region2

end
-- ==== Proof.Region3.lean ====
/-
  Region 3: a bias added to every row, then the positive part. The array of 50000 rows is cut into ten blocks of 5000
  rows; the bias is one row of 128 entries, the same block at every point. At each point the body adds the bias
  row to each row of the point's block and takes the maximum with 0, entry by entry, and stores the result as the point's block of the
  output. The operation is pointwise in the array's index (entry (r, q) of the output depends on entry (r, q)
  of the input and entry q of the bias), and the ten blocks tile the rows, so the output array after the region
  is the same pointwise function of the whole arrays.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The bias entry under column `j 1` of a block. -/
abbrev brow (j : S5000x128.Idx) : S1x128.Idx := fun a => match a with
  | ⟨0, _⟩ => ⟨0, Nat.one_pos⟩
  | ⟨1, _⟩ => ⟨(j 1).val, (j 1).isLt⟩

/-- The body's stored value at entry `j` of the block. -/
theorem pay_apply (b : Vec Ideal S1x128 .f32) (x : Vec Ideal S5000x128 .f32) (j : S5000x128.Idx) :
    k3_pay1 (F := Ideal) b x j = max (x j + b (brow j)) 0 := by
  unfold k3_pay1
  simp only [shapeCast_self]
  have hb : broadcastTo S5000x128 b broadcasts_S1x128_S5000x128 j = b (brow j) :=
    broadcastTo_apply b broadcasts_S1x128_S5000x128 j (brow j) (fun a => match a with
      | ⟨0, _⟩ => by show 0 = if (1 : Nat) = 1 then 0 else _; rw [if_pos rfl]
      | ⟨1, _⟩ => by show (j 1).val = if (128 : Nat) = 1 then 0 else _; rw [if_neg (by decide)]; rfl)
  show max (x j + broadcastTo S5000x128 b broadcasts_S1x128_S5000x128 j) (Ideal.ofBits .f32 0x00000000#32) = _
  rw [hb, Ideal.ofBits_zero_f32]

/-! ## The whole-array function -/

/-- The reference's operations on whole arrays: the bias row broadcast down the rows and added, then the maximum with the zero array. -/
abbrev G (A : FVec Ideal S50000x128 .f32) (b : FVec Ideal S1x128 .f32) : FVec Ideal S50000x128 .f32 :=
  maximumf (F := Ideal) (addf (F := Ideal) A (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- The bias entry under column `i 1` of the array. -/
abbrev arow (i : S50000x128.Idx) : S1x128.Idx := fun a => match a with
  | ⟨0, _⟩ => ⟨0, Nat.one_pos⟩
  | ⟨1, _⟩ => ⟨(i 1).val, (i 1).isLt⟩

theorem G_apply (A : FVec Ideal S50000x128 .f32) (b : FVec Ideal S1x128 .f32) (i : S50000x128.Idx) :
    G A b i = max (A i + b (arow i)) 0 := by
  have hb : broadcastInDim S50000x128 ![0, 1] Cert.ReferenceIdeal.Facts₀.bcast_S1x128_S50000x128_0_1 b i = b (arow i) :=
    broadcastInDim_apply _ Cert.ReferenceIdeal.Facts₀.bcast_S1x128_S50000x128_0_1 b i (arow i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have h0 : broadcastInDim S50000x128 ![] Cert.ReferenceIdeal.Facts₀.bcast_S_S50000x128 (constant (F := Ideal) S_ .f32 0x00000000#32) i = 0 :=
    (broadcastInDim_apply _ Cert.ReferenceIdeal.Facts₀.bcast_S_S50000x128 (constant (F := Ideal) S_ .f32 0x00000000#32) i (fun a => a.elim0) (fun a => a.elim0)).trans Ideal.ofBits_zero_f32
  show max (A i + broadcastInDim S50000x128 ![0, 1] Cert.ReferenceIdeal.Facts₀.bcast_S1x128_S50000x128_0_1 b i)
      (broadcastInDim S50000x128 ![] Cert.ReferenceIdeal.Facts₀.bcast_S_S50000x128 (constant (F := Ideal) S_ .f32 0x00000000#32) i) = _
  rw [hb, h0]

/-! ## From blocks to the array -/

/-- The index maps over the grid: point `t` takes block `t` of the input's rows and of the output's rows; the
    bias has one block. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the whole-array function. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (F := Ideal) (iblk3 V c 1 t) (iblk3 V c 0 t) j = G (V c main_v59) (V c main_v60) (((cfg3.win 2).blk t).view.emb j)
  rw [pay_apply, G_apply]
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (brow j) = arow (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have hx : iblk3 V c 0 t j = V c main_v59 (((cfg3.win 2).blk t).view.emb j) := by
    show V c main_v59 (((cfg3.win 0).blk t).view.emb j) = _
    rw [h0]
  have hbb : iblk3 V c 1 t (brow j) = V c main_v60 (arow (((cfg3.win 2).blk t).view.emb j)) := by
    show V c main_v60 (((cfg3.win 1).blk t).view.emb (brow j)) = _
    rw [h1]
  rw [hx, hbb]

/-- An index of the output array lies in point `t`'s block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row `r` of the output lies in the block of point `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_2 _, ?_⟩
  rw [mem_blk]
  obtain ⟨e0, e1, e2, e3, e4, e5⟩ := idx_facts ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The output array after the region: the whole-array function of the two arrays the region found on entry. -/
theorem final (c : Dev nD) :
    (dat3 V c).arrAt 2 cfg3.N = G (V c main_v59) (V c main_v60) :=
  (dat3 V c).arrAt_eq_of_cover 2 (G (V c main_v59) (V c main_v60)) (fun t _ => flushed_eq V c t) cover

end Cert.KernelIdeal.Region3

end
-- ==== Proof.Region4.lean ====
/-
  Region 4: a row-blocked matrix product. The array of 50000 rows is cut into ten blocks of 5000 rows;
  at each grid point the body multiplies the point's block of rows by the WHOLE right factor (128 × 128) into a
  zero accumulator and stores the product as the point's block of the output. Rounding the factors to bf16 is
  the identity on the extended reals, so entry (r, q) of a block's product is the sum over k of
  left(r, k) · right(k, q). A row of the output depends only on the same row of the left factor, and the ten
  blocks tile the rows, so the output array after the region is the product of the whole arrays: the
  reference's `dot_general` of the two arrays the region finds on entry.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- Row `j 0`, column `k` of a block of the left factor. -/
abbrev lrow (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of the right factor. -/
abbrev rcol (j : S5000x128.Idx) (k : Fin 128) : S128x128.Idx := fun a => match a with
  | ⟨0, _⟩ => ⟨k.val, k.isLt⟩
  | ⟨1, _⟩ => ⟨(j 1).val, (j 1).isLt⟩

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `j` of the block: the sum over the contracted axis of the products. -/
theorem pay_apply (x0 : Vec Ideal S5000x128 .f32) (x1 : Vec Ideal S128x128 .f32) (j : S5000x128.Idx) :
    k4_pay1 (F := Ideal) x0 x1 j = ∑ k : Fin 128, x0 (lrow j k) * x1 (rcol j k) := by
  unfold k4_pay1
  simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The whole-array product -/

/-- Row `i 0`, column `k` of the whole left factor. -/
abbrev alrow (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of the right factor. -/
abbrev arcol (i : S50000x128.Idx) (k : Fin 128) : S128x128.Idx := fun a => match a with
  | ⟨0, _⟩ => ⟨k.val, k.isLt⟩
  | ⟨1, _⟩ => ⟨(i 1).val, (i 1).isLt⟩

theorem alhs_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem alhs_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem arhs_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem arhs_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The reference's product of two whole arrays. -/
abbrev G (A : FVec Ideal S50000x128 .f32) (B : FVec Ideal S128x128 .f32) : FVec Ideal S50000x128 .f32 :=
  Host.dotGeneral (F := Ideal) Cert.ReferenceIdeal.dot_S50000x128_S128x128_S50000x128_1_0_0_1_n_n none A B

/-- Entry `i` of the whole product: the sum over `k` of left(i 0, k) · right(k, i 1). -/
theorem G_apply (A : FVec Ideal S50000x128 .f32) (B : FVec Ideal S128x128 .f32) (i : S50000x128.Idx) :
    G A B i = ∑ k : Fin 128, A (alrow i k) * B (arcol i k) := by
  show FloatOps.dotGeneral Cert.ReferenceIdeal.dot_S50000x128_S128x128_S50000x128_1_0_0_1_n_n none _ A B i = _
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = alrow i k := funext fun a => Fin.ext (by
    match a with
    | ⟨0, _⟩ => exact alhs_0 _ _
    | ⟨1, _⟩ => exact (alhs_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = arcol i k := funext fun a => Fin.ext (by
    match a with
    | ⟨0, _⟩ => exact (arhs_0 _ _).trans hk
    | ⟨1, _⟩ => exact arhs_1 _ _)
  rw [el, er]

/-! ## From blocks to the array -/

/-- The index maps over the grid: point `t` takes block `t` of the left factor's rows and of the output's rows;
    the right factor has one block. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the whole product. -/
theorem flushed_eq (c : Dev nD) (t : Fin cfg4.N) :
    (dat4 V c).flushed 2 t = ((cfg4.win 2).blk t).view.read (Elt Ideal) (G (V c main_v61) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  show k4_pay1 (F := Ideal) (iblk4 V c 0 t) (iblk4 V c 1 t) j = G (V c main_v61) (V c main_arg7) (((cfg4.win 2).blk t).view.emb j)
  rw [pay_apply, G_apply]
  refine Finset.sum_congr rfl fun k _ => ?_
  have h0 : ((cfg4.win 0).blk t).view.emb (lrow j k) = alrow (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rcol j k) = arcol (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  have hl : iblk4 V c 0 t (lrow j k) = V c main_v61 (alrow (((cfg4.win 2).blk t).view.emb j) k) := by
    show V c main_v61 (((cfg4.win 0).blk t).view.emb (lrow j k)) = _
    rw [h0]
  have hr : iblk4 V c 1 t (rcol j k) = V c main_arg7 (arcol (((cfg4.win 2).blk t).view.emb j) k) := by
    show V c main_arg7 (((cfg4.win 1).blk t).view.emb (rcol j k)) = _
    rw [h1]
  rw [hl, hr]

/-- An index of the output array lies in point `t`'s block iff each coordinate is in the block's range. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Row `r` of the output lies in the block of point `r / 5000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  rw [mem_blk]
  obtain ⟨e0, e1, e2, e3, e4, e5⟩ := idx_facts ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 128 ≤ (i 1).val ∧ (i 1).val < win4_2.index _ (1 : Fin 2) * 128 + 128; rw [e5]; omega

/-- The output array after the region: the product of the two arrays the region found on entry. -/
theorem final (c : Dev nD) :
    (dat4 V c).arrAt 2 cfg4.N = G (V c main_v61) (V c main_arg7) :=
  (dat4 V c).arrAt_eq_of_cover 2 (G (V c main_v61) (V c main_arg7)) (fun t _ => flushed_eq V c t) cover

end Cert.KernelIdeal.Region4

end
-- ==== Proof.Region5.lean ====
/-
  Region 5: a bias added to every row. The array of 50000 rows is cut into ten blocks of 5000
  rows; the bias is one row of 128 entries, the same block at every point. At each point the body adds the bias
  row to each row of the point's block, entry by entry, and stores the result as the point's block of the
  output. The operation is pointwise in the array's index (entry (r, q) of the output depends on entry (r, q)
  of the input and entry q of the bias), and the ten blocks tile the rows, so the output array after the region
  is the same pointwise function of the whole arrays.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The bias entry under column `j 1` of a block. -/
abbrev brow (j : S5000x128.Idx) : S1x128.Idx := fun a => match a with
  | ⟨0, _⟩ => ⟨0, Nat.one_pos⟩
  | ⟨1, _⟩ => ⟨(j 1).val, (j 1).isLt⟩

/-- The body's stored value at entry `j` of the block. -/
theorem pay_apply (b : Vec Ideal S1x128 .f32) (x : Vec Ideal S5000x128 .f32) (j : S5000x128.Idx) :
    k5_pay1 (F := Ideal) b x j = x j + b (brow j) := by
  unfold k5_pay1
  simp only [shapeCast_self]
  have hb : broadcastTo S5000x128 b broadcasts_S1x128_S5000x128 j = b (brow j) :=
    broadcastTo_apply b broadcasts_S1x128_S5000x128 j (brow j) (fun a => match a with
      | ⟨0, _⟩ => by show 0 = if (1 : Nat) = 1 then 0 else _; rw [if_pos rfl]
      | ⟨1, _⟩ => by show (j 1).val = if (128 : Nat) = 1 then 0 else _; rw [if_neg (by decide)]; rfl)
  show x j + broadcastTo S5000x128 b broadcasts_S1x128_S5000x128 j = _
  rw [hb]

/-! ## The whole-array function -/

/-- The reference's operations on whole arrays: the bias row broadcast down the rows and added. -/
abbrev G (A : FVec Ideal S50000x128 .f32) (b : FVec Ideal S1x128 .f32) : FVec Ideal S50000x128 .f32 :=
  addf (F := Ideal) A (broadcastInDim S50000x128 ![0, 1] Cert.ReferenceIdeal.Facts₀.bcast_S1x128_S50000x128_0_1 b)

/-- The bias entry under column `i 1` of the array. -/
abbrev arow (i : S50000x128.Idx) : S1x128.Idx := fun a => match a with
  | ⟨0, _⟩ => ⟨0, Nat.one_pos⟩
  | ⟨1, _⟩ => ⟨(i 1).val, (i 1).isLt⟩

theorem G_apply (A : FVec Ideal S50000x128 .f32) (b : FVec Ideal S1x128 .f32) (i : S50000x128.Idx) :
    G A b i = A i + b (arow i) := by
  have hb : broadcastInDim S50000x128 ![0, 1] Cert.ReferenceIdeal.Facts₀.bcast_S1x128_S50000x128_0_1 b i = b (arow i) :=
    broadcastInDim_apply _ Cert.ReferenceIdeal.Facts₀.bcast_S1x128_S50000x128_0_1 b i (arow i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show A i + broadcastInDim S50000x128 ![0, 1] Cert.ReferenceIdeal.Facts₀.bcast_S1x128_S50000x128_0_1 b i = _
  rw [hb]

/-! ## From blocks to the array -/

/-- The index maps over the grid: point `t` takes block `t` of the input's rows and of the output's rows; the
    bias has one block. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the whole-array function. -/
theorem flushed_eq (c : Dev nD) (t : Fin cfg5.N) :
    (dat5 V c).flushed 2 t = ((cfg5.win 2).blk t).view.read (Elt Ideal) (G (V c main_v75) (V c main_v76)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  show k5_pay1 (F := Ideal) (iblk5 V c 1 t) (iblk5 V c 0 t) j = G (V c main_v75) (V c main_v76) (((cfg5.win 2).blk t).view.emb j)
  rw [pay_apply, G_apply]
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (brow j) = arow (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  have hx : iblk5 V c 0 t j = V c main_v75 (((cfg5.win 2).blk t).view.emb j) := by
    show V c main_v75 (((cfg5.win 0).blk t).view.emb j) = _
    rw [h0]
  have hbb : iblk5 V c 1 t (brow j) = V c main_v76 (arow (((cfg5.win 2).blk t).view.emb j)) := by
    show V c main_v76 (((cfg5.win 1).blk t).view.emb (brow j)) = _
    rw [h1]
  rw [hx, hbb]

/-- An index of the output array lies in point `t`'s block iff each coordinate is in the block's range. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Row `r` of the output lies in the block of point `r / 5000`. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_2 _, ?_⟩
  rw [mem_blk]
  obtain ⟨e0, e1, e2, e3, e4, e5⟩ := idx_facts ⟨(i 0).val / 5000, by rw [hN]; omega⟩
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 128 ≤ (i 1).val ∧ (i 1).val < win5_2.index _ (1 : Fin 2) * 128 + 128; rw [e5]; omega

/-- The output array after the region: the whole-array function of the two arrays the region found on entry. -/
theorem final (c : Dev nD) :
    (dat5 V c).arrAt 2 cfg5.N = G (V c main_v75) (V c main_v76) :=
  (dat5 V c).arrAt_eq_of_cover 2 (G (V c main_v75) (V c main_v76)) (fun t _ => flushed_eq V c t) cover

end Cert.KernelIdeal.Region5

end
-- ==== Proof.Region6.lean ====
/-
  Region 6: the mean over each graph and the final linear map, in one block (a grid of one point). The body
  reads the 512 × 128 array of per-graph sums, the 512 × 1 column of per-graph counts, the 128 × 1 weight and the
  1 × 1 bias. It replaces each count by its maximum with 1, divides row g of the sums by that count, multiplies
  the quotient by the weight column (a sum over the 128 features; rounding the factors to bf16 is the identity
  on the extended reals) and adds the bias. So entry (g, 0) of the output is
    (Σ_k  sums(g, k) / max(count(g), 1) · weight(k, 0)) + bias.
  The one block is the whole of every array, so this is also the output array after the region.
-/
import proofs.«101955_j11063835755072_1_alg».proof.Proof.Gen.KernelIdeal.Frame
import proofs.«101955_j11063835755072_1_alg».proof.ReferenceIdeal
import proofs.«101955_j11063835755072_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Indices -/

/-- Row `j 0`, feature `k` of the sums. -/
abbrev srow (j : S512x1.Idx) (k : Fin 128) : S512x128.Idx := fun a => match a with
  | ⟨0, _⟩ => ⟨(j 0).val, (j 0).isLt⟩
  | ⟨1, _⟩ => ⟨k.val, k.isLt⟩
/-- Feature `k` of the weight column. -/
abbrev wcol (j : S512x1.Idx) (k : Fin 128) : S128x1.Idx := fun a => match a with
  | ⟨0, _⟩ => ⟨k.val, k.isLt⟩
  | ⟨1, _⟩ => ⟨(j 1).val, (j 1).isLt⟩
/-- The count of the row of an entry of the sums. -/
abbrev crow (i : S512x128.Idx) : S512x1.Idx := fun a => match a with
  | ⟨0, _⟩ => ⟨(i 0).val, (i 0).isLt⟩
  | ⟨1, _⟩ => ⟨0, Nat.one_pos⟩
/-- The one entry of the bias. -/
abbrev b00 : S1x1.Idx := fun a => match a with
  | ⟨0, _⟩ => ⟨0, Nat.one_pos⟩
  | ⟨1, _⟩ => ⟨0, Nat.one_pos⟩

theorem lhs_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhs_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhs_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhs_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-! ## The output as one function of the four arrays -/

/-- Entry `i` of the output: the weighted sum of row `i 0` of the sums divided by the row's clamped count, plus the bias. -/
def G (S : S512x128.Idx → EReal) (C : S512x1.Idx → EReal) (W : S128x1.Idx → EReal) (b : S1x1.Idx → EReal) : S512x1.Idx → EReal :=
  fun i => (∑ k : Fin 128, Ideal.div (S (srow i k)) (max (C (crow (srow i k))) (Ideal.ofBits .f32 0x3F800000#32)) * W (wcol i k)) + b b00

/-- The body's stored value at entry `j` is that function of its four loaded blocks. -/
theorem pay_apply (x0 : Vec Ideal S512x1 .f32) (x4 : Vec Ideal S512x128 .f32) (x9 : Vec Ideal S128x1 .f32) (x12 : Vec Ideal S1x1 .f32) (j : S512x1.Idx) :
    k6_pay1 (F := Ideal) x0 x4 x9 x12 j = G x4 x0 x9 x12 j := by
  unfold k6_pay1 G
  simp only [shapeCast_self]
  have hb : broadcastTo S512x1 x12 broadcasts_S1x1_S512x1 j = x12 b00 :=
    broadcastTo_apply x12 broadcasts_S1x1_S512x1 j b00 (fun a => match a with
      | ⟨0, _⟩ => by show 0 = if (1 : Nat) = 1 then 0 else _; rw [if_pos rfl]
      | ⟨1, _⟩ => by show 0 = if (1 : Nat) = 1 then 0 else _; rw [if_pos rfl])
  refine (congrArg₂ (HAdd.hAdd : EReal → EReal → EReal) (Ideal.matmul_constant_zero_apply dot_S512x128_S128x1_S512x1_1_0_0_1_n_n none _ _ j) hb).trans ?_
  refine congrArg (fun z : EReal => z + x12 b00) ?_
  rw [← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx j ((ValueIdx.contrEquiv1 dot_S512x128_S128x1_S512x1_1_0_0_1_n_n 128 rfl rfl).symm k) = srow j k := funext fun a => Fin.ext (by
    match a with
    | ⟨0, _⟩ => exact lhs_0 _ _
    | ⟨1, _⟩ => exact (lhs_1 _ _).trans hk)
  have er : dot_S512x128_S128x1_S512x1_1_0_0_1_n_n.rhsIdx j ((ValueIdx.contrEquiv1 dot_S512x128_S128x1_S512x1_1_0_0_1_n_n 128 rfl rfl).symm k) = wcol j k := funext fun a => Fin.ext (by
    match a with
    | ⟨0, _⟩ => exact (rhs_0 _ _).trans hk
    | ⟨1, _⟩ => exact rhs_1 _ _)
  rw [el, er]
  have hc : broadcastTo S512x128 (maximumf (F := Ideal) x0 (broadcast S512x1 (Scalar.ofBits (F := Ideal) .f32 0x3F800000#32))) broadcasts_S512x1_S512x128 (srow j k)
      = max (x0 (crow (srow j k))) (Ideal.ofBits .f32 0x3F800000#32) :=
    broadcastTo_apply _ broadcasts_S512x1_S512x128 (srow j k) (crow (srow j k)) (fun a => match a with
      | ⟨0, _⟩ => by show (j 0).val = if (512 : Nat) = 1 then 0 else _; rw [if_neg (by decide)]; rfl
      | ⟨1, _⟩ => by show 0 = if (1 : Nat) = 1 then 0 else _; rw [if_pos rfl])
  show Ideal.div (x4 (srow j k)) (broadcastTo S512x128 (maximumf (F := Ideal) x0 (broadcast S512x1 (Scalar.ofBits (F := Ideal) .f32 0x3F800000#32))) broadcasts_S512x1_S512x128 (srow j k)) * x9 (wcol j k) = _
  rw [hc]

/-! ## From the one block to the array -/

/-- The index maps: every window's one block is block (0, 0). -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- What the one point writes back is the output function of the four arrays, read through the whole-array block. -/
theorem flushed_eq (c : Dev nD) (t : Fin cfg6.N) :
    (dat6 V c).flushed 4 t = ((cfg6.win 4).blk t).view.read (Elt Ideal) (G (V c main_v80) (V c main_v85) (V c main_arg9) (V c main_v86)) := by
  show (cfg6.win 4).cut (grid6.coords t) ((dat6 V c).after 4 t) = _
  rw [after6_4]
  unfold out6_4
  rw [View.canon_unit_zero hz]
  simp only [View.ld_unit_zero (S := S512x128) hz, View.ld_unit_zero (S := S512x1) hz, View.ld_unit_zero (S := S128x1) hz, View.ld_unit_zero (S := S1x1) hz]
  obtain ⟨a0, a1, b0, b1, c0, c1, d0, d1, o0, o1⟩ := idx_facts t
  funext j
  show k6_pay1 (F := Ideal) (iblk6 V c 1 t) (iblk6 V c 0 t) (iblk6 V c 2 t) (iblk6 V c 3 t) j = G (V c main_v80) (V c main_v85) (V c main_arg9) (V c main_v86) (((cfg6.win 4).blk t).view.emb j)
  rw [pay_apply]
  unfold G
  have hj : ((cfg6.win 4).blk t).view.emb j = j := by
    funext a; apply Fin.ext
    match a with
    | ⟨0, _⟩ => show win6_4.index t (0 : Fin 2) * 512 + 1 * (j 0).val = (j 0).val; omega
    | ⟨1, _⟩ => show win6_4.index t (1 : Fin 2) * 1 + 1 * (j 1).val = (j 1).val; omega
  rw [hj]
  have hS : ∀ y : S512x128.Idx, iblk6 V c 0 t y = V c main_v80 y := fun y => by
    show V c main_v80 (((cfg6.win 0).blk t).view.emb y) = V c main_v80 y
    refine congrArg (V c main_v80) (funext fun a => Fin.ext ?_)
    match a with
    | ⟨0, _⟩ => show win6_0.index t (0 : Fin 2) * 512 + 1 * (y 0).val = (y 0).val; omega
    | ⟨1, _⟩ => show win6_0.index t (1 : Fin 2) * 128 + 1 * (y 1).val = (y 1).val; omega
  have hC : ∀ y : S512x1.Idx, iblk6 V c 1 t y = V c main_v85 y := fun y => by
    show V c main_v85 (((cfg6.win 1).blk t).view.emb y) = V c main_v85 y
    refine congrArg (V c main_v85) (funext fun a => Fin.ext ?_)
    match a with
    | ⟨0, _⟩ => show win6_1.index t (0 : Fin 2) * 512 + 1 * (y 0).val = (y 0).val; omega
    | ⟨1, _⟩ => show win6_1.index t (1 : Fin 2) * 1 + 1 * (y 1).val = (y 1).val; omega
  have hW : ∀ y : S128x1.Idx, iblk6 V c 2 t y = V c main_arg9 y := fun y => by
    show V c main_arg9 (((cfg6.win 2).blk t).view.emb y) = V c main_arg9 y
    refine congrArg (V c main_arg9) (funext fun a => Fin.ext ?_)
    match a with
    | ⟨0, _⟩ => show win6_2.index t (0 : Fin 2) * 128 + 1 * (y 0).val = (y 0).val; omega
    | ⟨1, _⟩ => show win6_2.index t (1 : Fin 2) * 1 + 1 * (y 1).val = (y 1).val; omega
  have hB : ∀ y : S1x1.Idx, iblk6 V c 3 t y = V c main_v86 y := fun y => by
    show V c main_v86 (((cfg6.win 3).blk t).view.emb y) = V c main_v86 y
    refine congrArg (V c main_v86) (funext fun a => Fin.ext ?_)
    match a with
    | ⟨0, _⟩ => show win6_3.index t (0 : Fin 2) * 1 + 1 * (y 0).val = (y 0).val; omega
    | ⟨1, _⟩ => show win6_3.index t (1 : Fin 2) * 1 + 1 * (y 1).val = (y 1).val; omega
  simp only [hS, hC, hW, hB]

/-- An index of the output array lies in the one block iff each coordinate is in the block's range. -/
theorem mem_blk (t : Fin cfg6.N) (i : S512x1.Idx) :
    i ∈ ((cfg6.win 4).blk t).view.set ↔ ∀ a : Fin 2, win6_4.index t a * S512x1.size a ≤ (i a).val ∧ (i a).val < win6_4.index t a * S512x1.size a + S512x1.size a := by
  show i ∈ ((View.whole main_v87).slice (win6_4.rect t)).set ↔ _
  rw [View.set_slice_whole, Rect.mem_set_unit]
  exact Iff.rfl

/-- The one block covers the output array. -/
theorem cover (i : S512x1.Idx) :
    ∃ t : Fin cfg6.N, (cfg6.win 4).flush t = true ∧ i ∈ ((cfg6.win 4).blk t).view.set := by
  have hi0 : (i 0).val < 512 := (i 0).isLt
  have hi1 : (i 1).val < 1 := (i 1).isLt
  refine ⟨t6_0, flush6_4 _, ?_⟩
  rw [mem_blk]
  obtain ⟨a0, a1, b0, b1, c0, c1, d0, d1, o0, o1⟩ := idx_facts t6_0
  intro a
  match a with
  | ⟨0, _⟩ => show win6_4.index t6_0 (0 : Fin 2) * 512 ≤ (i 0).val ∧ (i 0).val < win6_4.index t6_0 (0 : Fin 2) * 512 + 512; omega
  | ⟨1, _⟩ => show win6_4.index t6_0 (1 : Fin 2) * 1 ≤ (i 1).val ∧ (i 1).val < win6_4.index t6_0 (1 : Fin 2) * 1 + 1; omega

/-- The output array after the region: the output function of the four arrays the region found on entry. -/
theorem final (c : Dev nD) :
    (dat6 V c).arrAt 4 cfg6.N = G (V c main_v80) (V c main_v85) (V c main_arg9) (V c main_v86) :=
  (dat6 V c).arrAt_eq_of_cover 4 (G (V c main_v80) (V c main_v85) (V c main_arg9) (V c main_v86)) (fun t _ => flushed_eq V c t) cover

end Cert.KernelIdeal.Region6

end
-- ==== Proof.Chain.lean ====
/-
  The idealized kernel program's result as a function of its arguments. Its run is a fold through fourteen
  boundaries (RunW): host stretches apply their operations, a kernel region replaces its output array by what
  its write-backs leave (Region0 … Region6: a matrix product, a bias with or without the positive part, the mean
  and the final linear map — each the reference's own operation on the arrays the region finds). Here the fold
  is walked from the launch to the return. Three arrays computed once from the edge list are carried along — the
  source indices, the destination indices and the symmetric-normalisation weight of each edge (with self-loops
  appended) — together with the arguments a later step reads; each layer's aggregation (gather along the sources,
  scale, scatter-add along the destinations) is the same chain of host operations in both programs, so it is
  never opened: its operands are shown equal and the chain is compared as a whole. At every boundary the
  contents that matter are the reference's own stage of the same arguments, and at the return the result
  buffer holds the reference's result.
-/
import proofs.«101955_j11063835755072_1_alg».proof.Proof.Gen.KernelIdeal.Frame
import proofs.«101955_j11063835755072_1_alg».proof.Proof.RefRead
import proofs.«101955_j11063835755072_1_alg».proof.Proof.Region0
import proofs.«101955_j11063835755072_1_alg».proof.Proof.Region1
import proofs.«101955_j11063835755072_1_alg».proof.Proof.Region2
import proofs.«101955_j11063835755072_1_alg».proof.Proof.Region3
import proofs.«101955_j11063835755072_1_alg».proof.Proof.Region4
import proofs.«101955_j11063835755072_1_alg».proof.Proof.Region5
import proofs.«101955_j11063835755072_1_alg».proof.Proof.Region6
import Idealize.ShloMosaic.Lib.StableHlo.Run
import Idealize.ShloMosaic.Lib.Pipeline.Value

set_option maxRecDepth 16384

noncomputable section

open Idealize.ShloMosaic Idealize.ShloMosaic.TcCoe Idealize.SL.Sem

namespace Cert.KernelIdeal.Chain

open Cert.KernelIdeal Cert.KernelIdeal.Gen

/-- A buffer that no operation of a host stretch writes keeps its contents across the stretch. -/
macro "host_keeps" : tactic => `(tactic| (
  refine StableHlo.after_of_forall_not_mem _ _ (List.forall_iff_forall_mem.mp ?_)
  simp only [hostOps0, hostOps0_1, hostOps0_2, hostOps1, hostOps3, hostOps5, hostOps6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Recasts: a vector as one row, a column, a single entry -/

/-- A vector of 128 entries recast as a 1 × 128 row is the vector broadcast into the row. -/
theorem cast_row (x : FVec Ideal S128 .f32) (h : S128.ShapeCasts S1x128) :
    shapeCast S1x128 x h = Cert.ReferenceIdeal.ReadP.val_main_v44 (F := Ideal) x := by
  funext i
  rw [Cert.ReferenceIdeal.ReadP.val_main_v44_apply]
  refine (shapeCast_addUnit_apply ![128] x h i).trans (congrArg x (funext fun a => Fin.ext ?_))
  match a with
  | ⟨0, _⟩ => rfl

variable (m : (ℓ : Loc nD τ sig) → Buf (Elt Ideal) ℓ) (ρ : Dev nD → PrngReg) (c : Dev nD)

/-! ## Before the first region: the edge arrays, and the first product -/

/-- No host operation and no region before boundary 3 writes argument 0. -/
theorem arg0_at3_aux : W3 m ρ c (Proc.devRef .tc main_arg0) = W0 m ρ c (Proc.devRef .tc main_arg0) :=
  calc W3 m ρ c (Proc.devRef .tc main_arg0)
    _ = W2 m ρ c (Proc.devRef .tc main_arg0) := (by host_keeps : W3 m ρ c (Proc.devRef .tc main_arg0) = W2 m ρ c (Proc.devRef .tc main_arg0))
    _ = W1 m ρ c (Proc.devRef .tc main_arg0) := (by host_keeps : W2 m ρ c (Proc.devRef .tc main_arg0) = W1 m ρ c (Proc.devRef .tc main_arg0))
    _ = W0 m ρ c (Proc.devRef .tc main_arg0) := (by host_keeps : W1 m ρ c (Proc.devRef .tc main_arg0) = W0 m ρ c (Proc.devRef .tc main_arg0))
theorem arg0_at3 : W3 m ρ c (Proc.devRef .tc main_arg0) = (m ((c : Thread nD τ).loc main_arg0)) := (arg0_at3_aux m ρ c).trans rfl
/-- No host operation and no region before boundary 3 writes argument 3. -/
theorem arg3_at3_aux : W3 m ρ c (Proc.devRef .tc main_arg3) = W0 m ρ c (Proc.devRef .tc main_arg3) :=
  calc W3 m ρ c (Proc.devRef .tc main_arg3)
    _ = W2 m ρ c (Proc.devRef .tc main_arg3) := (by host_keeps : W3 m ρ c (Proc.devRef .tc main_arg3) = W2 m ρ c (Proc.devRef .tc main_arg3))
    _ = W1 m ρ c (Proc.devRef .tc main_arg3) := (by host_keeps : W2 m ρ c (Proc.devRef .tc main_arg3) = W1 m ρ c (Proc.devRef .tc main_arg3))
    _ = W0 m ρ c (Proc.devRef .tc main_arg3) := (by host_keeps : W1 m ρ c (Proc.devRef .tc main_arg3) = W0 m ρ c (Proc.devRef .tc main_arg3))
theorem arg3_at3 : W3 m ρ c (Proc.devRef .tc main_arg3) = (m ((c : Thread nD τ).loc main_arg3)) := (arg3_at3_aux m ρ c).trans rfl

/-- The source indices: the edge list's first row with the node numbers appended. -/
theorem v3_at1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  simp only [hostOps0]
  after_results_simp
  rfl

/-- The destination indices: the edge list's second row with the node numbers appended. -/
theorem v6_at1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  simp only [hostOps0]
  after_results_simp
  rfl

/-- Where a node's degree (the scatter-add of ones along the destinations) is positive. -/
theorem v12_at1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  simp only [hostOps0]
  after_results_simp
  rfl

/-- The inverse square root of every node's degree. -/
theorem v13_at1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  simp only [hostOps0]
  after_results_simp
  rfl

/-- The scalar 0 the degree-0 nodes get. -/
theorem cst2_at1 : W1 m ρ c (Proc.devRef .tc main_cst_2) = Cert.ReferenceIdeal.ReadP.val_main_cst_2 (F := Ideal) := by
  show StableHlo.after hostOps0 (W0 m ρ c) (Proc.devRef .tc main_cst_2) = _
  simp only [hostOps0]
  after_results_simp
  rfl

/-- The outlined `where`: from ANY contents holding a mask, a vector and a scalar at its three operands, the stretch
    leaves the select of the mask, the vector and the scalar broadcast. (Stated over variables: the operands stay closed.) -/
theorem where_stage (U : Valuation τ sig (Elt Ideal)) (msk : (⟨S50000, .i1⟩ : BufTy).Contents (Elt Ideal))
    (x : (⟨S50000, .f32⟩ : BufTy).Contents (Elt Ideal)) (z : (⟨S_, .f32⟩ : BufTy).Contents (Elt Ideal))
    (hm : U (Proc.devRef .tc main_v12) = msk) (hx : U (Proc.devRef .tc main_v13) = x) (hz : U (Proc.devRef .tc main_cst_2) = z) :
    StableHlo.after hostOps0_1 U (Proc.devRef .tc main_v14) = select msk x (broadcastInDim S50000 ![] bcast_S_S50000 (id z)) := by
  simp only [hostOps0_1]
  after_results_simp
  rw [hm, hx, hz]
  rfl

/-- Each node's factor: the inverse square root of its degree where the degree is positive, 0 elsewhere. -/
theorem v14_at2 : W2 m ρ c (Proc.devRef .tc main_v14) = Cert.ReferenceIdeal.ReadP.val_main_v14 (F := Ideal) (m ((c : Thread nD τ).loc main_arg1)) :=
  (where_stage (W1 m ρ c) _ _ _ (v12_at1 m ρ c) (v13_at1 m ρ c) (cst2_at1 m ρ c)).trans (by
    unfold Cert.ReferenceIdeal.ReadP.val_main_v14 Cert.ReferenceIdeal.ReadP.val_main_call0_v1 Cert.ReferenceIdeal.ReadP.val_main_call0_v0
    rfl)

theorem v3_at2 : W2 m ρ c (Proc.devRef .tc main_v3) = Cert.ReferenceIdeal.ReadP.val_main_v3 (F := Ideal) (m ((c : Thread nD τ).loc main_arg1)) :=
  (by host_keeps : W2 m ρ c (Proc.devRef .tc main_v3) = W1 m ρ c (Proc.devRef .tc main_v3)).trans (v3_at1 m ρ c)
theorem v6_at2 : W2 m ρ c (Proc.devRef .tc main_v6) = Cert.ReferenceIdeal.ReadP.val_main_v6 (F := Ideal) (m ((c : Thread nD τ).loc main_arg1)) :=
  (by host_keeps : W2 m ρ c (Proc.devRef .tc main_v6) = W1 m ρ c (Proc.devRef .tc main_v6)).trans (v6_at1 m ρ c)
theorem v3_at3 : W3 m ρ c (Proc.devRef .tc main_v3) = Cert.ReferenceIdeal.ReadP.val_main_v3 (F := Ideal) (m ((c : Thread nD τ).loc main_arg1)) :=
  (by host_keeps : W3 m ρ c (Proc.devRef .tc main_v3) = W2 m ρ c (Proc.devRef .tc main_v3)).trans (v3_at2 m ρ c)
theorem v6_at3 : W3 m ρ c (Proc.devRef .tc main_v6) = Cert.ReferenceIdeal.ReadP.val_main_v6 (F := Ideal) (m ((c : Thread nD τ).loc main_arg1)) :=
  (by host_keeps : W3 m ρ c (Proc.devRef .tc main_v6) = W2 m ρ c (Proc.devRef .tc main_v6)).trans (v6_at2 m ρ c)

/-- The edge weights: the two end nodes' factors, gathered along the sources and along the destinations, multiplied. -/
theorem v29_at3 : W3 m ρ c (Proc.devRef .tc main_v29) = Cert.ReferenceIdeal.ReadP.val_main_v29 (F := Ideal) (m ((c : Thread nD τ).loc main_arg1)) := by
  have h14 := v14_at2 m ρ c
  have h3 := v3_at2 m ρ c
  have h6 := v6_at2 m ρ c
  show StableHlo.after hostOps0_2 (W2 m ρ c) (Proc.devRef .tc main_v29) = _
  generalize W2 m ρ c = U at h14 h3 h6 ⊢
  simp only [hostOps0_2]
  after_results_simp
  rw [h14, h3, h6]
  rfl

/-- After region 0: the node features times the first weight matrix. -/
theorem prod1 : W4 m ρ c (Proc.devRef .tc main_v30) = Cert.ReferenceIdeal.ReadP.val_main_v30 (F := Ideal) (m ((c : Thread nD τ).loc main_arg0)) (m ((c : Thread nD τ).loc main_arg3)) :=
  (W4_arr m ρ c 2).trans ((Region0.final (V3 m ρ) c).trans (by
    rw [show V3 m ρ c main_arg0 = _ from arg0_at3 m ρ c, show V3 m ρ c main_arg3 = _ from arg3_at3 m ρ c]
    rfl))

/-! ## Layer 1: the aggregation (host), the bias and positive part (region 1), the next product (region 2) -/

/-- The source array is not written between boundaries 3 and 4. -/
theorem v3_at4_aux : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
theorem v3_at4 : W4 m ρ c (Proc.devRef .tc main_v3) = Cert.ReferenceIdeal.ReadP.val_main_v3 (F := Ideal) (m ((c : Thread nD τ).loc main_arg1)) := (v3_at4_aux m ρ c).trans (v3_at3 m ρ c)
/-- The destination array is not written between boundaries 3 and 4. -/
theorem v6_at4_aux : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
theorem v6_at4 : W4 m ρ c (Proc.devRef .tc main_v6) = Cert.ReferenceIdeal.ReadP.val_main_v6 (F := Ideal) (m ((c : Thread nD τ).loc main_arg1)) := (v6_at4_aux m ρ c).trans (v6_at3 m ρ c)
/-- The edge-weight array is not written between boundaries 3 and 4. -/
theorem v29_at4_aux : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)
theorem v29_at4 : W4 m ρ c (Proc.devRef .tc main_v29) = Cert.ReferenceIdeal.ReadP.val_main_v29 (F := Ideal) (m ((c : Thread nD τ).loc main_arg1)) := (v29_at4_aux m ρ c).trans (v29_at3 m ρ c)
/-- No host operation and no region before boundary 4 writes argument 4. -/
theorem arg4_at4_aux : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := (by host_keeps : W3 m ρ c (Proc.devRef .tc main_arg4) = W2 m ρ c (Proc.devRef .tc main_arg4))
    _ = W1 m ρ c (Proc.devRef .tc main_arg4) := (by host_keeps : W2 m ρ c (Proc.devRef .tc main_arg4) = W1 m ρ c (Proc.devRef .tc main_arg4))
    _ = W0 m ρ c (Proc.devRef .tc main_arg4) := (by host_keeps : W1 m ρ c (Proc.devRef .tc main_arg4) = W0 m ρ c (Proc.devRef .tc main_arg4))
theorem arg4_at4 : W4 m ρ c (Proc.devRef .tc main_arg4) = (m ((c : Thread nD τ).loc main_arg4)) := (arg4_at4_aux m ρ c).trans rfl

/-- The aggregated array: the layer's product gathered along the source indices, scaled by the edge weights and
    scatter-added along the destination indices — the same host operations in both programs, on equal operands. -/
theorem agg1 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  simp only [hostOps1]
  after_results_simp
  rw [prod1 m ρ c, v3_at4 m ρ c, v6_at4 m ρ c, v29_at4 m ρ c]
  rfl

/-- The bias row as the region finds it: the bias vector recast as one row. -/
theorem brow1 : W5 m ρ c (Proc.devRef .tc main_v44) = Cert.ReferenceIdeal.ReadP.val_main_v44 (F := Ideal) (m ((c : Thread nD τ).loc main_arg4)) := by
  show StableHlo.after hostOps1 (W4 m ρ c) (Proc.devRef .tc main_v44) = _
  simp only [hostOps1]
  after_results_simp
  rw [arg4_at4 m ρ c]
  exact cast_row _ _

/-- After region 1: the aggregated array plus the bias row, positive part. -/
theorem act1 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) :=
  (W6_arr m ρ c 2).trans ((Region1.final (V5 m ρ) c).trans (by
    rw [show V5 m ρ c main_v43 = _ from agg1 m ρ c, show V5 m ρ c main_v44 = _ from brow1 m ρ c]
    rfl))

/-- No host operation and no region before boundary 6 writes argument 5. -/
theorem arg5_at6_aux : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := (by host_keeps : W5 m ρ c (Proc.devRef .tc main_arg5) = W4 m ρ c (Proc.devRef .tc main_arg5))
    _ = W3 m ρ c (Proc.devRef .tc main_arg5) := W4_of_ne m ρ c main_arg5 (by decide)
    _ = W2 m ρ c (Proc.devRef .tc main_arg5) := (by host_keeps : W3 m ρ c (Proc.devRef .tc main_arg5) = W2 m ρ c (Proc.devRef .tc main_arg5))
    _ = W1 m ρ c (Proc.devRef .tc main_arg5) := (by host_keeps : W2 m ρ c (Proc.devRef .tc main_arg5) = W1 m ρ c (Proc.devRef .tc main_arg5))
    _ = W0 m ρ c (Proc.devRef .tc main_arg5) := (by host_keeps : W1 m ρ c (Proc.devRef .tc main_arg5) = W0 m ρ c (Proc.devRef .tc main_arg5))
theorem arg5_at6 : W6 m ρ c (Proc.devRef .tc main_arg5) = (m ((c : Thread nD τ).loc main_arg5)) := (arg5_at6_aux m ρ c).trans rfl

/-- After region 2: the next layer's product. -/
theorem prod2 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((Region2.final (V6 m ρ) c).trans (by
    rw [show V6 m ρ c main_v45 = _ from act1 m ρ c, show V6 m ρ c main_arg5 = _ from arg5_at6 m ρ c]
    rfl))

/-! ## Layer 2: the aggregation (host), the bias and positive part (region 3), the next product (region 4) -/

/-- The source array is not written between boundaries 4 and 7. -/
theorem v3_at7_aux : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := (by host_keeps : W5 m ρ c (Proc.devRef .tc main_v3) = W4 m ρ c (Proc.devRef .tc main_v3))
theorem v3_at7 : W7 m ρ c (Proc.devRef .tc main_v3) = Cert.ReferenceIdeal.ReadP.val_main_v3 (F := Ideal) (m ((c : Thread nD τ).loc main_arg1)) := (v3_at7_aux m ρ c).trans (v3_at4 m ρ c)
/-- The destination array is not written between boundaries 4 and 7. -/
theorem v6_at7_aux : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := (by host_keeps : W5 m ρ c (Proc.devRef .tc main_v6) = W4 m ρ c (Proc.devRef .tc main_v6))
theorem v6_at7 : W7 m ρ c (Proc.devRef .tc main_v6) = Cert.ReferenceIdeal.ReadP.val_main_v6 (F := Ideal) (m ((c : Thread nD τ).loc main_arg1)) := (v6_at7_aux m ρ c).trans (v6_at4 m ρ c)
/-- The edge-weight array is not written between boundaries 4 and 7. -/
theorem v29_at7_aux : W7 m ρ c (Proc.devRef .tc main_v29) = W4 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := (by host_keeps : W5 m ρ c (Proc.devRef .tc main_v29) = W4 m ρ c (Proc.devRef .tc main_v29))
theorem v29_at7 : W7 m ρ c (Proc.devRef .tc main_v29) = Cert.ReferenceIdeal.ReadP.val_main_v29 (F := Ideal) (m ((c : Thread nD τ).loc main_arg1)) := (v29_at7_aux m ρ c).trans (v29_at4 m ρ c)
/-- No host operation and no region before boundary 7 writes argument 6. -/
theorem arg6_at7_aux : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := (by host_keeps : W5 m ρ c (Proc.devRef .tc main_arg6) = W4 m ρ c (Proc.devRef .tc main_arg6))
    _ = W3 m ρ c (Proc.devRef .tc main_arg6) := W4_of_ne m ρ c main_arg6 (by decide)
    _ = W2 m ρ c (Proc.devRef .tc main_arg6) := (by host_keeps : W3 m ρ c (Proc.devRef .tc main_arg6) = W2 m ρ c (Proc.devRef .tc main_arg6))
    _ = W1 m ρ c (Proc.devRef .tc main_arg6) := (by host_keeps : W2 m ρ c (Proc.devRef .tc main_arg6) = W1 m ρ c (Proc.devRef .tc main_arg6))
    _ = W0 m ρ c (Proc.devRef .tc main_arg6) := (by host_keeps : W1 m ρ c (Proc.devRef .tc main_arg6) = W0 m ρ c (Proc.devRef .tc main_arg6))
theorem arg6_at7 : W7 m ρ c (Proc.devRef .tc main_arg6) = (m ((c : Thread nD τ).loc main_arg6)) := (arg6_at7_aux m ρ c).trans rfl

/-- The aggregated array: the layer's product gathered along the source indices, scaled by the edge weights and
    scatter-added along the destination indices — the same host operations in both programs, on equal operands. -/
theorem agg2 : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W7 m ρ c) (Proc.devRef .tc main_v59) = _
  simp only [hostOps3]
  after_results_simp
  rw [prod2 m ρ c, v3_at7 m ρ c, v6_at7 m ρ c, v29_at7 m ρ c]
  rfl

/-- The bias row as the region finds it: the bias vector recast as one row. -/
theorem brow2 : W8 m ρ c (Proc.devRef .tc main_v60) = Cert.ReferenceIdeal.ReadP.val_main_v62 (F := Ideal) (m ((c : Thread nD τ).loc main_arg6)) := by
  show StableHlo.after hostOps3 (W7 m ρ c) (Proc.devRef .tc main_v60) = _
  simp only [hostOps3]
  after_results_simp
  rw [arg6_at7 m ρ c]
  exact cast_row _ _

/-- After region 3: the aggregated array plus the bias row, positive part. -/
theorem act2 : W9 m ρ c (Proc.devRef .tc main_v61) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans ((Region3.final (V8 m ρ) c).trans (by
    rw [show V8 m ρ c main_v59 = _ from agg2 m ρ c, show V8 m ρ c main_v60 = _ from brow2 m ρ c]
    rfl))

/-- No host operation and no region before boundary 9 writes argument 7. -/
theorem arg7_at9_aux : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := (by host_keeps : W8 m ρ c (Proc.devRef .tc main_arg7) = W7 m ρ c (Proc.devRef .tc main_arg7))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := (by host_keeps : W5 m ρ c (Proc.devRef .tc main_arg7) = W4 m ρ c (Proc.devRef .tc main_arg7))
    _ = W3 m ρ c (Proc.devRef .tc main_arg7) := W4_of_ne m ρ c main_arg7 (by decide)
    _ = W2 m ρ c (Proc.devRef .tc main_arg7) := (by host_keeps : W3 m ρ c (Proc.devRef .tc main_arg7) = W2 m ρ c (Proc.devRef .tc main_arg7))
    _ = W1 m ρ c (Proc.devRef .tc main_arg7) := (by host_keeps : W2 m ρ c (Proc.devRef .tc main_arg7) = W1 m ρ c (Proc.devRef .tc main_arg7))
    _ = W0 m ρ c (Proc.devRef .tc main_arg7) := (by host_keeps : W1 m ρ c (Proc.devRef .tc main_arg7) = W0 m ρ c (Proc.devRef .tc main_arg7))
theorem arg7_at9 : W9 m ρ c (Proc.devRef .tc main_arg7) = (m ((c : Thread nD τ).loc main_arg7)) := (arg7_at9_aux m ρ c).trans rfl

/-- After region 4: the next layer's product. -/
theorem prod3 : W10 m ρ c (Proc.devRef .tc main_v62) = Cert.ReferenceIdeal.ReadP.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((Region4.final (V9 m ρ) c).trans (by
    rw [show V9 m ρ c main_v61 = _ from act2 m ρ c, show V9 m ρ c main_arg7 = _ from arg7_at9 m ρ c]
    rfl))

/-! ## Layer 3: the aggregation (host), the bias (region 5) -/

/-- The source array is not written between boundaries 7 and 10. -/
theorem v3_at10_aux : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := (by host_keeps : W8 m ρ c (Proc.devRef .tc main_v3) = W7 m ρ c (Proc.devRef .tc main_v3))
theorem v3_at10 : W10 m ρ c (Proc.devRef .tc main_v3) = Cert.ReferenceIdeal.ReadP.val_main_v3 (F := Ideal) (m ((c : Thread nD τ).loc main_arg1)) := (v3_at10_aux m ρ c).trans (v3_at7 m ρ c)
/-- The destination array is not written between boundaries 7 and 10. -/
theorem v6_at10_aux : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := (by host_keeps : W8 m ρ c (Proc.devRef .tc main_v6) = W7 m ρ c (Proc.devRef .tc main_v6))
theorem v6_at10 : W10 m ρ c (Proc.devRef .tc main_v6) = Cert.ReferenceIdeal.ReadP.val_main_v6 (F := Ideal) (m ((c : Thread nD τ).loc main_arg1)) := (v6_at10_aux m ρ c).trans (v6_at7 m ρ c)
/-- The edge-weight array is not written between boundaries 7 and 10. -/
theorem v29_at10_aux : W10 m ρ c (Proc.devRef .tc main_v29) = W7 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := (by host_keeps : W8 m ρ c (Proc.devRef .tc main_v29) = W7 m ρ c (Proc.devRef .tc main_v29))
theorem v29_at10 : W10 m ρ c (Proc.devRef .tc main_v29) = Cert.ReferenceIdeal.ReadP.val_main_v29 (F := Ideal) (m ((c : Thread nD τ).loc main_arg1)) := (v29_at10_aux m ρ c).trans (v29_at7 m ρ c)
/-- No host operation and no region before boundary 10 writes argument 8. -/
theorem arg8_at10_aux : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := (by host_keeps : W8 m ρ c (Proc.devRef .tc main_arg8) = W7 m ρ c (Proc.devRef .tc main_arg8))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := (by host_keeps : W5 m ρ c (Proc.devRef .tc main_arg8) = W4 m ρ c (Proc.devRef .tc main_arg8))
    _ = W3 m ρ c (Proc.devRef .tc main_arg8) := W4_of_ne m ρ c main_arg8 (by decide)
    _ = W2 m ρ c (Proc.devRef .tc main_arg8) := (by host_keeps : W3 m ρ c (Proc.devRef .tc main_arg8) = W2 m ρ c (Proc.devRef .tc main_arg8))
    _ = W1 m ρ c (Proc.devRef .tc main_arg8) := (by host_keeps : W2 m ρ c (Proc.devRef .tc main_arg8) = W1 m ρ c (Proc.devRef .tc main_arg8))
    _ = W0 m ρ c (Proc.devRef .tc main_arg8) := (by host_keeps : W1 m ρ c (Proc.devRef .tc main_arg8) = W0 m ρ c (Proc.devRef .tc main_arg8))
theorem arg8_at10 : W10 m ρ c (Proc.devRef .tc main_arg8) = (m ((c : Thread nD τ).loc main_arg8)) := (arg8_at10_aux m ρ c).trans rfl

/-- The aggregated array: the layer's product gathered along the source indices, scaled by the edge weights and
    scatter-added along the destination indices — the same host operations in both programs, on equal operands. -/
theorem agg3 : W11 m ρ c (Proc.devRef .tc main_v75) = Cert.ReferenceIdeal.ReadP.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v75) = _
  simp only [hostOps5]
  after_results_simp
  rw [prod3 m ρ c, v3_at10 m ρ c, v6_at10 m ρ c, v29_at10 m ρ c]
  rfl

/-- The bias row as the region finds it: the bias vector recast as one row. -/
theorem brow3 : W11 m ρ c (Proc.devRef .tc main_v76) = Cert.ReferenceIdeal.ReadP.val_main_v80 (F := Ideal) (m ((c : Thread nD τ).loc main_arg8)) := by
  show StableHlo.after hostOps5 (W10 m ρ c) (Proc.devRef .tc main_v76) = _
  simp only [hostOps5]
  after_results_simp
  rw [arg8_at10 m ρ c]
  exact cast_row _ _

/-- After region 5: the aggregated array plus the bias row. -/
theorem act3 : W12 m ρ c (Proc.devRef .tc main_v77) = Cert.ReferenceIdeal.ReadP.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((Region5.final (V11 m ρ) c).trans (by
    rw [show V11 m ρ c main_v75 = _ from agg3 m ρ c, show V11 m ρ c main_v76 = _ from brow3 m ρ c]
    rfl))

/-! ## The pool and the final linear map -/

/-- No host operation and no region before boundary 12 writes argument 2. -/
theorem arg2_at12_aux : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := (by host_keeps : W11 m ρ c (Proc.devRef .tc main_arg2) = W10 m ρ c (Proc.devRef .tc main_arg2))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := (by host_keeps : W8 m ρ c (Proc.devRef .tc main_arg2) = W7 m ρ c (Proc.devRef .tc main_arg2))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := (by host_keeps : W5 m ρ c (Proc.devRef .tc main_arg2) = W4 m ρ c (Proc.devRef .tc main_arg2))
    _ = W3 m ρ c (Proc.devRef .tc main_arg2) := W4_of_ne m ρ c main_arg2 (by decide)
    _ = W2 m ρ c (Proc.devRef .tc main_arg2) := (by host_keeps : W3 m ρ c (Proc.devRef .tc main_arg2) = W2 m ρ c (Proc.devRef .tc main_arg2))
    _ = W1 m ρ c (Proc.devRef .tc main_arg2) := (by host_keeps : W2 m ρ c (Proc.devRef .tc main_arg2) = W1 m ρ c (Proc.devRef .tc main_arg2))
    _ = W0 m ρ c (Proc.devRef .tc main_arg2) := (by host_keeps : W1 m ρ c (Proc.devRef .tc main_arg2) = W0 m ρ c (Proc.devRef .tc main_arg2))
theorem arg2_at12 : W12 m ρ c (Proc.devRef .tc main_arg2) = (m ((c : Thread nD τ).loc main_arg2)) := (arg2_at12_aux m ρ c).trans rfl
/-- No host operation and no region before boundary 12 writes argument 10. -/
theorem arg10_at12_aux : W12 m ρ c (Proc.devRef .tc main_arg10) = W0 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := (by host_keeps : W11 m ρ c (Proc.devRef .tc main_arg10) = W10 m ρ c (Proc.devRef .tc main_arg10))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := (by host_keeps : W8 m ρ c (Proc.devRef .tc main_arg10) = W7 m ρ c (Proc.devRef .tc main_arg10))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := (by host_keeps : W5 m ρ c (Proc.devRef .tc main_arg10) = W4 m ρ c (Proc.devRef .tc main_arg10))
    _ = W3 m ρ c (Proc.devRef .tc main_arg10) := W4_of_ne m ρ c main_arg10 (by decide)
    _ = W2 m ρ c (Proc.devRef .tc main_arg10) := (by host_keeps : W3 m ρ c (Proc.devRef .tc main_arg10) = W2 m ρ c (Proc.devRef .tc main_arg10))
    _ = W1 m ρ c (Proc.devRef .tc main_arg10) := (by host_keeps : W2 m ρ c (Proc.devRef .tc main_arg10) = W1 m ρ c (Proc.devRef .tc main_arg10))
    _ = W0 m ρ c (Proc.devRef .tc main_arg10) := (by host_keeps : W1 m ρ c (Proc.devRef .tc main_arg10) = W0 m ρ c (Proc.devRef .tc main_arg10))
theorem arg10_at12 : W12 m ρ c (Proc.devRef .tc main_arg10) = (m ((c : Thread nD τ).loc main_arg10)) := (arg10_at12_aux m ρ c).trans rfl
/-- No host operation and no region before boundary 13 writes argument 9. -/
theorem arg9_at13_aux : W13 m ρ c (Proc.devRef .tc main_arg9) = W0 m ρ c (Proc.devRef .tc main_arg9) :=
  calc W13 m ρ c (Proc.devRef .tc main_arg9)
    _ = W12 m ρ c (Proc.devRef .tc main_arg9) := (by host_keeps : W13 m ρ c (Proc.devRef .tc main_arg9) = W12 m ρ c (Proc.devRef .tc main_arg9))
    _ = W11 m ρ c (Proc.devRef .tc main_arg9) := W12_of_ne m ρ c main_arg9 (by decide)
    _ = W10 m ρ c (Proc.devRef .tc main_arg9) := (by host_keeps : W11 m ρ c (Proc.devRef .tc main_arg9) = W10 m ρ c (Proc.devRef .tc main_arg9))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := (by host_keeps : W8 m ρ c (Proc.devRef .tc main_arg9) = W7 m ρ c (Proc.devRef .tc main_arg9))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := (by host_keeps : W5 m ρ c (Proc.devRef .tc main_arg9) = W4 m ρ c (Proc.devRef .tc main_arg9))
    _ = W3 m ρ c (Proc.devRef .tc main_arg9) := W4_of_ne m ρ c main_arg9 (by decide)
    _ = W2 m ρ c (Proc.devRef .tc main_arg9) := (by host_keeps : W3 m ρ c (Proc.devRef .tc main_arg9) = W2 m ρ c (Proc.devRef .tc main_arg9))
    _ = W1 m ρ c (Proc.devRef .tc main_arg9) := (by host_keeps : W2 m ρ c (Proc.devRef .tc main_arg9) = W1 m ρ c (Proc.devRef .tc main_arg9))
    _ = W0 m ρ c (Proc.devRef .tc main_arg9) := (by host_keeps : W1 m ρ c (Proc.devRef .tc main_arg9) = W0 m ρ c (Proc.devRef .tc main_arg9))
theorem arg9_at13 : W13 m ρ c (Proc.devRef .tc main_arg9) = (m ((c : Thread nD τ).loc main_arg9)) := (arg9_at13_aux m ρ c).trans rfl

/-- The per-graph sums of the last layer's output. -/
theorem sums : W13 m ρ c (Proc.devRef .tc main_v80) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) (Proc.devRef .tc main_v80) = _
  simp only [hostOps6]
  after_results_simp
  rw [act3 m ρ c, arg2_at12 m ρ c]
  rfl

/-- The per-graph node counts, recast as a column. -/
theorem counts : W13 m ρ c (Proc.devRef .tc main_v85) = shapeCast S512x1 (Cert.ReferenceIdeal.ReadP.val_main_v89 (F := Ideal) (m ((c : Thread nD τ).loc main_arg2))) shapeCasts_S512_S512x1 := by
  show StableHlo.after hostOps6 (W12 m ρ c) (Proc.devRef .tc main_v85) = _
  simp only [hostOps6]
  after_results_simp
  rw [arg2_at12 m ρ c]
  rfl

/-- The final bias, recast as a 1 × 1 array. -/
theorem bias11 : W13 m ρ c (Proc.devRef .tc main_v86) = shapeCast S1x1 (m ((c : Thread nD τ).loc main_arg10)) shapeCasts_S1_S1x1 := by
  show StableHlo.after hostOps6 (W12 m ρ c) (Proc.devRef .tc main_v86) = _
  simp only [hostOps6]
  after_results_simp
  rw [arg10_at12 m ρ c]
  rfl

/-- Region 6's output function of the sums, the recast counts, the weight and the recast bias is the reference's
    tail: the sums divided by the counts clamped at 1 (the clamp commutes with the recast to a column and the
    broadcast along the features), the product with the weight column, plus the bias. -/
theorem pool_eq (S : FVec Ideal S512x128 .f32) (hS : S = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (C : FVec Ideal S512 .f32) (hC : C = Cert.ReferenceIdeal.ReadP.val_main_v89 (F := Ideal) (m ((c : Thread nD τ).loc main_arg2))) :
    Region6.G S (shapeCast S512x1 C shapeCasts_S512_S512x1) (m ((c : Thread nD τ).loc main_arg9)) (shapeCast S1x1 (m ((c : Thread nD τ).loc main_arg10)) shapeCasts_S1_S1x1)
      = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [Cert.ReferenceIdeal.ReadP.val_main_v98_apply, Cert.ReferenceIdeal.ReadP.val_main_v95_apply, Cert.ReferenceIdeal.ReadP.val_main_v97_apply, Cert.ReferenceIdeal.ReadP.val_main_v96_apply]
  unfold Region6.G
  have hb : shapeCast S1x1 (m ((c : Thread nD τ).loc main_arg10)) shapeCasts_S1_S1x1 Region6.b00 = (m ((c : Thread nD τ).loc main_arg10)) (Cert.ReferenceIdeal.ReadP.idx_main_v96 (Cert.ReferenceIdeal.ReadP.idx_main_v97 i)) :=
    (shapeCast_addUnit_apply ![1] (m ((c : Thread nD τ).loc main_arg10)) shapeCasts_S1_S1x1 Region6.b00).trans (congrArg (m ((c : Thread nD τ).loc main_arg10)) (funext fun a => Fin.ext (by
      match a with
      | ⟨0, _⟩ => rfl)))
  rw [hb]
  refine congrArg₂ (HAdd.hAdd : EReal → EReal → EReal) (Finset.sum_congr rfl fun k _ => ?_) rfl
  rw [Cert.ReferenceIdeal.ReadP.val_main_v94_apply, Cert.ReferenceIdeal.ReadP.val_main_v93_apply, Cert.ReferenceIdeal.ReadP.val_main_v92_apply, Cert.ReferenceIdeal.ReadP.val_main_v91_apply, Cert.ReferenceIdeal.ReadP.val_main_v90_apply, Cert.ReferenceIdeal.ReadP.val_main_cst_18_apply]
  have hc : shapeCast S512x1 C shapeCasts_S512_S512x1 (Region6.crow (Region6.srow i k)) = C (Cert.ReferenceIdeal.ReadP.idx_main_v92 (Cert.ReferenceIdeal.ReadP.idx_main_v93 (Cert.ReferenceIdeal.ReadP.lidx_main_v95 i k))) :=
    (shapeCast_apply C shapeCasts_S512_S512x1 (Region6.crow (Region6.srow i k)) (Cert.ReferenceIdeal.ReadP.idx_main_v92 (Cert.ReferenceIdeal.ReadP.idx_main_v93 (Cert.ReferenceIdeal.ReadP.lidx_main_v95 i k))) (by
      simp only [Shape.rowMajor_val_one, Shape.rowMajor_val_two]
      show (i 0).val = (i 0).val * 1 + 0
      omega))
  rw [hc, ← hS, ← hC]
  rfl

/-- The result buffer at the return: the reference's result of the same arguments. -/
theorem result : W14 m ρ c (Proc.devRef .tc main_v87) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 4).trans ((Region6.final (V13 m ρ) c).trans (by
    rw [show V13 m ρ c main_v80 = _ from sums m ρ c, show V13 m ρ c main_v85 = _ from counts m ρ c,
      show V13 m ρ c main_arg9 = _ from arg9_at13 m ρ c, show V13 m ρ c main_v86 = _ from bias11 m ρ c]
    exact pool_eq m c _ rfl _ rfl))

end Cert.KernelIdeal.Chain

end
-- ==== Proof.lean ====
/-
  Three graph-convolution layers, a mean pool over 512 graphs and a final linear map, computed two ways.

  Both programs start from the edge list alone: the source and destination index arrays (each edge-list row with the
  node numbers appended as self-loops), the in-degree of every node (a scatter-add of ones), its inverse square root
  (0 where the degree is 0) and, per edge, the product of the two end nodes' factors. A layer then is
    H ↦ scatter-add over destinations of ( (H · W)[source] · edge weight ) + b,
  followed by the positive part in the first two layers; the pool sums the last layer's rows per graph, divides by the
  per-graph node count clamped at 1, multiplies by a 128 × 1 weight and adds a scalar bias.

  The reference does all of this with host operations. The kernel program keeps the index-dependent steps (gather,
  scale, scatter-add, the pool's sums and counts) as the SAME host operations and replaces the dense steps by seven
  kernel regions: the three products H · W, each computed block by block over ten blocks of 5000 rows into a zero
  accumulator (Region0/2/4); the three bias steps, block by block likewise (Region1/3/5); and the pool's division,
  product and bias in one block (Region6). On the extended reals the rounding of a product's factors to bf16 is the
  identity and a blocked product into a zero accumulator is the whole product, so each region's output array is the
  reference's own operation applied to the arrays the region finds (RegionK.final). Walking the kernel program's run
  from the launch to the return (RunW, Chain) therefore meets the reference's stages one by one — the shared host
  chains are compared as wholes, never opened — and the result buffers agree. No algebraic law beyond reassociating a
  finite sum's index is used, so the precondition (finite inputs) is never opened.

  The frames of the two kernel programs are the generated frame certificates; the reference's frame is its run with
  the result dropped; the idealization rewrote nothing, so there is nothing to preserve.
-/
import proofs.«101955_j11063835755072_1_alg».proof.Defs
import proofs.«101955_j11063835755072_1_alg».proof.Proof.Gen.Kernel
import proofs.«101955_j11063835755072_1_alg».proof.Proof.Gen.Kernel.Frame
import proofs.«101955_j11063835755072_1_alg».proof.Proof.Gen.KernelIdeal
import proofs.«101955_j11063835755072_1_alg».proof.Proof.Gen.KernelIdeal.Frame
import proofs.«101955_j11063835755072_1_alg».proof.Proof.Gen.ReferenceIdeal
import proofs.«101955_j11063835755072_1_alg».proof.Proof.Gen.Pre_finite_inputs
import proofs.«101955_j11063835755072_1_alg».proof.Proof.RefRun
import proofs.«101955_j11063835755072_1_alg».proof.Proof.RefRead
import proofs.«101955_j11063835755072_1_alg».proof.Proof.RunW
import proofs.«101955_j11063835755072_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed: its generated frame certificate. -/
theorem frame_k : Cert.frame_Kernel := fun m ρ _ => Cert.Kernel.Gen.frame m ρ

/-- The idealized kernel program: its generated frame certificate. -/
theorem frame_ki : Cert.frame_KernelIdeal := fun m ρ _ => Cert.KernelIdeal.Gen.frame m ρ

/-- The idealized reference: a line of host operations; its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the reference's last stage of those
    arguments in their result buffers: the kernel program by its walked run, the reference by its own. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.RunW.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v98_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
